-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S64x2048 : Shape := ⟨2, ![64, 2048]⟩
abbrev S2048x2048 : Shape := ⟨2, ![2048, 2048]⟩
abbrev S64x256 : Shape := ⟨2, ![64, 256]⟩
abbrev S64x512 : Shape := ⟨2, ![64, 512]⟩
abbrev S256x512 : Shape := ⟨2, ![256, 512]⟩
abbrev S8x256 : Shape := ⟨2, ![8, 256]⟩
abbrev S8x512 : Shape := ⟨2, ![8, 512]⟩
abbrev S8x256x1 : Shape := ⟨3, ![8, 256, 1]⟩
abbrev S8x1x512 : Shape := ⟨3, ![8, 1, 512]⟩
abbrev S8x256x512 : Shape := ⟨3, ![8, 256, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S64x2048, .f32⟩
  | .hbm, ⟨3, _⟩ => ⟨S64x2048, .f32⟩
  | .hbm, ⟨4, _⟩ => ⟨S2048x2048, .f32⟩
  | .local _ .vmem, ⟨0, _⟩ => ⟨S64x256, .f32⟩
  | .local _ .vmem, ⟨1, _⟩ => ⟨S64x256, .f32⟩
  | .local _ .vmem, ⟨2, _⟩ => ⟨S64x512, .f32⟩
  | .local _ .vmem, ⟨3, _⟩ => ⟨S64x512, .f32⟩
  | .local _ .vmem, ⟨4, _⟩ => ⟨S256x512, .f32⟩
  | .local _ .vmem, ⟨5, _⟩ => ⟨S256x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_3 : BitVec 32 := 8#32
  let v6 : BitVec 32 := Scalar.muli arg5 c8_i32_3
  v6
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_3 : BitVec 32 := 8#32
  let v6 : BitVec 32 := Scalar.muli arg5 c8_i32_3
  let v7 : BitVec 32 := v6
  let v8 : Index := Scalar.indexCast v7
  let c0_4 : Index := 0#32
  ![v8.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32_3 : BitVec 32 := 8#32
  let v6 : BitVec 32 := Scalar.muli arg5 c8_i32_3
  let v7 : BitVec 32 := v6
  let v11 : Index := Scalar.indexCast v7
  let c0_5 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x64_S64x2048_1_0 : S2048x64.Transposes [1, 0] S64x2048
  h_S8x256 : 0 < S8x256.numel
  shapeCasts_S8x256_S8x256 : S8x256.ShapeCasts S8x256
  h_S8x512 : 0 < S8x512.numel
  shapeCasts_S8x512_S8x512 : S8x512.ShapeCasts S8x512
  shapeCasts_S8x256_S8x256x1 : S8x256.ShapeCasts S8x256x1
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  reduces_S8x256x512_S256x512 : S8x256x512.Reduces [0] S256x512
  inb_S256x512_S256x512_0_0 : ∀ a, (![0, 0] : Fin 2 → Nat) a + S256x512.size a ≤ S256x512.size a
  h_S256x512 : 0 < S256x512.numel
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x256.size a ≤ S64x256.size a
  k0_off2_inb : ∀ k0_t1 : Fin k0_t1_loop.trips, ∀ a, (k0_off2 k0_t1) a + S8x512.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x2048.size a
  hwx0_0 : ∀ i : grid0.Coords, EltTy.bits .f32 = 32 ∨ (Rect.block (s := S64x2048) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x2048.size a
  hwx0_1 : ∀ i : grid0.Coords, EltTy.bits .f32 = 32 ∨ (Rect.block (s := S64x2048) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)

variable [Facts₀]

abbrev win0_0 : Pipeline.Window sig grid0 :=
  Pipeline.Window.ofSpec (Memref.whole main_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S_ : Shape := ⟨0, ![]⟩
abbrev S64 : Shape := ⟨1, ![64]⟩
abbrev S1x64 : Shape := ⟨2, ![1, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S_, .f32⟩
  | .hbm, ⟨3, _⟩ => ⟨S64, .f32⟩
  | .hbm, ⟨4, _⟩ => ⟨S1x64, .f32⟩
  | .hbm, ⟨5, _⟩ => ⟨S_, .f32⟩
  | .hbm, ⟨6, _⟩ => ⟨S1x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x1x64, .f32⟩
  | .hbm, ⟨13, _⟩ => ⟨S1x2048x64, .f32⟩
  | .hbm, ⟨14, _⟩ => ⟨S2048x2048x64, .f32⟩
  | .hbm, ⟨15, _⟩ => ⟨S2048x2048x64, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S2048x64_S64_d0 : S2048x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S2048x64_0_1 : S1x64.BroadcastsInDim S2048x64 (![0, 1] : Fin 2 → Fin S2048x64.rank)
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  bcast_S_S2048x2048 : S_.BroadcastsInDim S2048x2048 (![] : Fin 0 → Fin S2048x2048.rank)

variable [Facts₀]

class Facts : Prop extends Facts₀ where

variable [Facts]
-- ==== Proof.LibAxisFolds.lean ====
/-
  Folds along one axis, and a host sum over the two trailing axes, of rank-3 and rank-4 arrays, read at
  coordinates at the ideal values (floats are extended reals, every operation exact); and two keepdims layouts.
  For any extents, and any float type or (for the layouts) any element type:

  * a vector sum over the LEADING axis of [a, b, c] into [b, c], at (r, w), is the sum over k < a of the array at
    (k, r, w) (`multiReduction_add_lead_apply`), and a vector maximum over that axis is the fold of `max` from the
    accumulator's value over the same entries (`multiReduction_max_lead_apply`);
  * a vector sum over the LAST axis of [a, b, c] into [a, b], at (p, n), is the sum over k < c of the array at
    (p, n, k) (`multiReduction_add_last3_apply`);
  * a host maximum over axis 1 of [a, b, c, d] into [a, c, d], at (p, r, w), is the fold of `max` from the initial
    value over k < b of the array at (p, k, r, w) (`hostReduce_max_axis1_apply`);
  * a host sum over the TWO TRAILING axes of [a, b, c, d] into [a, b], at (p, q), is the initial value plus the
    double sum over n < c and k < d of the array at (p, q, n, k) (`hostReduceAdd_trailing_two4_apply`): the indices
    that drop to (p, q) are exactly the (p, q, n, k), in bijection with the pairs (n, k);
  * an array [b, c] laid as [1, b, c] and broadcast along a new leading axis to [a, b, c] reads, at (k, r, w), its
    entry (r, w) (`leadBroadcast_apply`); an array [a, b] given a trailing unit axis reads, at (p, n, ·), its entry
    (p, n) (`shapeCast_ab_ab1_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.AxisFolds

open Idealize.ShloMosaic Idealize.ShloMosaic.ValueIdx

variable {φ : FTy}

/-- A vector sum over the leading axis of [a, b, c], read at (r, w): the sum over the leading coordinate. -/
theorem multiReduction_add_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.add.neutral φ hφ) (r : Fin b) (w : Fin c) :
    multiReduction .add [0] ⟨2, ![b, c]⟩ src acc h hφ hacc (ix2 r w) = ∑ k : Fin a, src (ix3 k r w) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A vector maximum over the leading axis of [a, b, c], read at (r, w): the fold of `max` from the accumulator's
    value over the leading coordinate. -/
theorem multiReduction_max_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.maximumf.neutral φ hφ) (r : Fin b) (w : Fin c) :
    multiReduction .maximumf [0] ⟨2, ![b, c]⟩ src acc h hφ hacc (ix2 r w)
      = (Finset.univ : Finset (Fin a)).fold max (Ideal.ofBits φ acc) (fun k => src (ix3 k r w)) := by
  rw [Ideal.multiReduction_maximumf_single]
  have hf : (src ∘ h.lift (ix2 r w)) = fun k : Fin a => src (ix3 k r w) :=
    funext fun k => congrArg src (funext fun d => Fin.ext (by match d with | ⟨0, _⟩ => rfl | ⟨1, _⟩ => rfl | ⟨2, _⟩ => rfl))
  exact congrArg (fun f => Finset.fold max (Ideal.ofBits φ acc) f (Finset.univ : Finset (Fin a))) hf

/-- A vector sum over the last axis of [a, b, c], read at (p, n): the sum over the last coordinate. -/
theorem multiReduction_add_last3_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (n : Fin b) :
    multiReduction .add [2] ⟨2, ![a, b]⟩ src acc h hφ hacc (ix2 p n) = ∑ k : Fin c, src (ix3 p n k) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A host maximum over axis 1 of [a, b, c, d], read at (p, r, w): the fold of `max` from the initial value over
    the coordinate of axis 1. -/
theorem hostReduce_max_axis1_apply {a b c d : Nat} {u : Shape} (x : FVec Ideal ⟨4, ![a, b, c, d]⟩ φ)
    (init : u.Idx → Ideal φ) (h' : (⟨4, ![a, b, c, d]⟩ : Shape).ReducesTo [1] ⟨3, ![a, c, d]⟩)
    (h : (⟨4, ![a, b, c, d]⟩ : Shape).Reduces [1] ⟨3, ![a, c, d]⟩) (hu : 0 < u.numel)
    (p : Fin a) (r : Fin c) (w : Fin d) :
    Host.reduce FloatOps.maximumf x init h' hu (ix3 p r w)
      = (Finset.univ : Finset (Fin b)).fold max (init (Shape.Idx.first hu)) (fun k => x (ix4 p k r w)) := by
  rw [Host.reduce_eq_fold_single FloatOps.maximumf x init h' h hu]
  have hf : (x ∘ h.lift (ix3 p r w)) = fun k : Fin b => x (ix4 p k r w) :=
    funext fun k => congrArg x (funext fun e => Fin.ext (by
      match e with | ⟨0, _⟩ => rfl | ⟨1, _⟩ => rfl | ⟨2, _⟩ => rfl | ⟨3, _⟩ => rfl))
  exact congrArg (fun f => Finset.fold max (init (Shape.Idx.first hu)) f (Finset.univ : Finset (Fin b))) hf

/-- An index of [a, b, c, d] drops, over its two trailing axes, to its two leading coordinates. -/
theorem drop_trailing_two4 {a b c d : Nat} (h : (⟨4, ![a, b, c, d]⟩ : Shape).ReducesTo [2, 3] ⟨2, ![a, b]⟩)
    (i : (⟨4, ![a, b, c, d]⟩ : Shape).Idx) : h.drop i = ix2 (i 0) (i 1) := by
  funext e
  match e with
  | ⟨0, _⟩ => exact Fin.ext (h.drop_apply_val_of_eq i ⟨0, Nat.zero_lt_two⟩ 0 Nat.zero_lt_two rfl)
  | ⟨1, _⟩ => exact Fin.ext (h.drop_apply_val_of_eq i ⟨1, Nat.one_lt_two⟩ 1 Nat.one_lt_two rfl)

/-- A host sum over the two trailing axes of [a, b, c, d], read at (p, q): the initial value plus the double sum
    over the two trailing coordinates. -/
theorem hostReduceAdd_trailing_two4_apply {a b c d : Nat}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ n : Fin c, ∑ k : Fin d, x (ix4 p q n k) := by
  unfold Ideal.hostReduceAdd
  refine congrArg (init + ·) ?_
  rw [← Finset.sum_product' (Finset.univ : Finset (Fin c)) (Finset.univ : Finset (Fin d)) fun n k => x (ix4 p q n k)]
  refine Finset.sum_nbij' (fun i => (i 2, i 3)) (fun z => ix4 p q z.1 z.2) ?_ ?_ ?_ ?_ ?_
  · intro i _; exact Finset.mem_product.2 ⟨Finset.mem_univ _, Finset.mem_univ _⟩
  · intro z _
    refine Finset.mem_filter.2 ⟨Finset.mem_univ _, ?_⟩
    rw [drop_trailing_two4]
    rfl
  · intro i hi
    have hj := (Finset.mem_filter.1 hi).2
    rw [drop_trailing_two4] at hj
    have h0 : i 0 = p := congrFun hj 0
    have h1 : i 1 = q := congrFun hj 1
    funext e
    match e with
    | ⟨0, _⟩ => exact h0.symm
    | ⟨1, _⟩ => exact h1.symm
    | ⟨2, _⟩ => rfl
    | ⟨3, _⟩ => rfl
  · intro z _; rfl
  · intro i hi
    have hj := (Finset.mem_filter.1 hi).2
    rw [drop_trailing_two4] at hj
    have h0 : i 0 = p := congrFun hj 0
    have h1 : i 1 = q := congrFun hj 1
    refine congrArg x ?_
    funext e
    match e with
    | ⟨0, _⟩ => exact h0
    | ⟨1, _⟩ => exact h1
    | ⟨2, _⟩ => rfl
    | ⟨3, _⟩ => rfl

section Layout
variable {α : Type}

/-- An array [a, b] given a trailing unit axis reads, at (p, n, ·), its entry (p, n). -/
theorem shapeCast_ab_ab1_apply {a b : Nat} (x : (⟨2, ![a, b]⟩ : Shape).Idx → α)
    (h : (⟨2, ![a, b]⟩ : Shape).ShapeCasts ⟨3, ![a, b, 1]⟩) (p : Fin a) (n : Fin b) (z : Fin 1) :
    shapeCast ⟨3, ![a, b, 1]⟩ x h (ix3 p n z) = x (ix2 p n) :=
  shapeCast_apply x h _ _ (by
    have hz : z.val = 0 := by omega
    rw [Shape.rowMajor_val_three, Shape.rowMajor_val_two]
    show p.val * b + n.val = (p.val * b + n.val) * 1 + z.val
    rw [hz, Nat.mul_one, Nat.add_zero])

/-- An array [b, c] laid as [1, b, c] and broadcast along a new leading axis to [a, b, c] reads, at (k, r, w), its
    entry (r, w). -/
theorem leadBroadcast_apply {a b c : Nat} (y : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (k : Fin a) (r : Fin b) (w : Fin c) :
    broadcastTo ⟨3, ![a, b, c]⟩ (shapeCast ⟨3, ![1, b, c]⟩ y hc) hb (ix3 k r w) = y (ix2 r w) := by
  refine (broadcastTo_apply _ hb (ix3 k r w) (ix3 (0 : Fin 1) r w) (fun e => ?_)).trans
    (shapeCast_ab_1ab_apply y hc 0 r w)
  match e with
  | ⟨0, _⟩ => show (0 : Nat) = if (1 : Nat) = 1 then 0 else k.val; rw [if_pos rfl]
  | ⟨1, _⟩ =>
    show r.val = if b = 1 then 0 else r.val
    split_ifs with hb1
    · have := r.isLt; omega
    · rfl
  | ⟨2, _⟩ =>
    show w.val = if c = 1 then 0 else w.val
    split_ifs with hc1
    · have := w.isLt; omega
    · rfl

end Layout

end Cert.Lib.AxisFolds

end
-- ==== Proof.Chunk.lean ====
/-
  One trip of the kernel's loop, read at an entry of the output block.

  A trip takes eight consecutive feature rows of the two staged blocks — the first block holds features down its
  rows and 256 points of the first set along its columns, the second 512 points of the second set —, lays the first
  down a trailing unit axis and the second across a middle unit axis, repeats both to [8, 256, 512], subtracts, takes
  absolute values, sums over the leading (feature) axis and adds the sum to the carried block. So at entry (p, q) a
  trip adds the sum over its eight features s of |u(s, p) - v(s, q)|. Before the first trip the carried block is
  zero; after the last, the block stored is the entrywise maximum of the carried block and zero.
-/
import proofs.«157641_j72335839199292_2_alg».proof.Proof.Gen.KernelIdeal.Skeleton
import proofs.«157641_j72335839199292_2_alg».proof.Proof.LibAxisFolds
import Idealize.ShloMosaic.Lib.ValueIdx
import Idealize.ShloMosaic.Lib.ValueLayout
import Idealize.ShloMosaic.Lib.Pipeline.Value
import Idealize.ShloMosaic.PureOps.Ideal.Laws

noncomputable section

namespace Cert.L1.Chunk

open Cert.KernelIdeal Cert.KernelIdeal.Gen Idealize.ShloMosaic Idealize.ShloMosaic.ValueIdx
open scoped BigOperators

section Layout
variable {α : Type}

/-- An array [a, c] given a middle unit axis reads, at (s, ·, w), its entry (s, w). -/
theorem shapeCast_ac_a1c_apply {a c : Nat} (x : (⟨2, ![a, c]⟩ : Shape).Idx → α)
    (h : (⟨2, ![a, c]⟩ : Shape).ShapeCasts ⟨3, ![a, 1, c]⟩) (s : Fin a) (z : Fin 1) (w : Fin c) :
    shapeCast ⟨3, ![a, 1, c]⟩ x h (ix3 s z w) = x (ix2 s w) :=
  shapeCast_apply x h _ _ (by
    have hz : z.val = 0 := by omega
    rw [Shape.rowMajor_val_three, Shape.rowMajor_val_two]
    show s.val * c + w.val = (s.val * 1 + z.val) * c + w.val
    rw [hz, Nat.mul_one, Nat.add_zero])

/-- Eight rows of the first block laid down a trailing unit axis and repeated along it: at (s, p, q), row s at p. -/
theorem column_apply (u : S8x256.Idx → α) (h1 : S8x256.ShapeCasts S8x256) (h2 : S8x256.ShapeCasts S8x256x1)
    (h3 : S8x256x1.Broadcasts S8x256x512) (s : Fin 8) (p : Fin 256) (q : Fin 512) :
    broadcastTo S8x256x512 (shapeCast S8x256x1 (shapeCast S8x256 u h1) h2) h3 (ix3 s p q) = u (ix2 s p) := by
  rw [shapeCast_self]
  refine (broadcastTo_apply _ h3 (ix3 s p q) (ix3 s p (0 : Fin 1)) (fun e => ?_)).trans
    (Cert.Lib.AxisFolds.shapeCast_ab_ab1_apply u h2 s p 0)
  match e with
  | ⟨0, _⟩ => show s.val = if (8 : Nat) = 1 then 0 else s.val; rw [if_neg (by decide)]
  | ⟨1, _⟩ => show p.val = if (256 : Nat) = 1 then 0 else p.val; rw [if_neg (by decide)]
  | ⟨2, _⟩ => show (0 : Nat) = if (1 : Nat) = 1 then 0 else q.val; rw [if_pos rfl]

/-- Eight rows of the second block laid across a middle unit axis and repeated along it: at (s, p, q), row s at q. -/
theorem row_apply (v : S8x512.Idx → α) (h1 : S8x512.ShapeCasts S8x512) (h2 : S8x512.ShapeCasts S8x1x512)
    (h3 : S8x1x512.Broadcasts S8x256x512) (s : Fin 8) (p : Fin 256) (q : Fin 512) :
    broadcastTo S8x256x512 (shapeCast S8x1x512 (shapeCast S8x512 v h1) h2) h3 (ix3 s p q) = v (ix2 s q) := by
  rw [shapeCast_self]
  refine (broadcastTo_apply _ h3 (ix3 s p q) (ix3 s (0 : Fin 1) q) (fun e => ?_)).trans
    (shapeCast_ac_a1c_apply v h2 s 0 q)
  match e with
  | ⟨0, _⟩ => show s.val = if (8 : Nat) = 1 then 0 else s.val; rw [if_neg (by decide)]
  | ⟨1, _⟩ => show (0 : Nat) = if (1 : Nat) = 1 then 0 else p.val; rw [if_pos rfl]
  | ⟨2, _⟩ => show q.val = if (512 : Nat) = 1 then 0 else q.val; rw [if_neg (by decide)]

end Layout

/-- Before the first trip the carried block is zero. -/
theorem start_apply (j : S256x512.Idx) : k0_pay1 (F := Ideal) j = 0 := by
  show Ideal.ofBits .f32 0x00000000#32 = 0
  exact Ideal.ofBits_zero_f32

/-- One trip adds, at (p, q), the sum over its eight features of the absolute differences. -/
theorem trip_apply (acc : FVec Ideal S256x512 .f32) (u : Vec Ideal S8x256 .f32) (v : Vec Ideal S8x512 .f32)
    (p : Fin 256) (q : Fin 512) :
    k0_pay2 (F := Ideal) acc u v (ix2 p q)
      = acc (ix2 p q) + ∑ s : Fin 8, FloatOps.absf (u (ix2 s p) - v (ix2 s q)) := by
  unfold k0_pay2
  refine congrArg (acc (ix2 p q) + ·) ?_
  refine (Cert.Lib.AxisFolds.multiReduction_add_lead_apply _ _ _ _ _ p q).trans ?_
  refine Finset.sum_congr rfl fun s _ => ?_
  exact congrArg FloatOps.absf (congrArg₂ (· - ·) (column_apply u _ _ _ s p q) (row_apply v _ _ _ s p q))

/-- The block stored is the entrywise maximum of the carried block and zero. -/
theorem clamp_apply (acc : FVec Ideal S256x512 .f32) (j : S256x512.Idx) :
    k0_pay3 (F := Ideal) acc j = max (acc j) 0 := by
  show max (acc j) (Ideal.ofBits .f32 0x00000000#32) = _
  rw [Ideal.ofBits_zero_f32]

end Cert.L1.Chunk

end
-- ==== Proof.Trips.lean ====
/-
  What the kernel body leaves in the output block, as a plain recursion over the loop's trips.

  The body runs a counted loop of eight trips that carries a [256, 512] block in registers. Trip k loads feature rows
  8k .. 8k+7 of each staged input block and yields the carried block updated by them; after the loop the body stores,
  over the whole output block, the entrywise maximum of the carried block and zero. Here the carried block before
  trip k is written as a recursion on k over the loop's own arithmetic (the value one trip yields from the carried
  block and the two groups of rows it loads), and the block the run leaves is shown to be the final clamp of that
  recursion after all the trips. Nothing here depends on what a float is.
-/
import proofs.«157641_j72335839199292_2_alg».proof.Proof.Gen.KernelIdeal.Frame
import Idealize.ShloMosaic.Lib.Pipeline.Value

set_option maxRecDepth 16384

noncomputable section

namespace Cert.L1.Trips

open Cert.KernelIdeal Cert.KernelIdeal.Gen
open Idealize.ShloMosaic Idealize.ShloMosaic.TcCoe Idealize.ShloMosaic.Tactic
open Idealize.SL Idealize.SL.Sem

variable {F : FTy → Type} [FloatOps F]

/-- The feature rows trip `k` reads of the first staged block: the [8, 256] rectangle at the trip's row offset. -/
def rowsA (x0 : Vec F S64x256 .f32) (k : Fin k0_t1_loop.trips) : Vec F S8x256 .f32 :=
  View.ld x0 (Rect.unit (s := S64x256) (k0_off1 k) S8x256.size (k0_off1_inb k))

/-- The feature rows trip `k` reads of the second staged block: the [8, 512] rectangle at the trip's row offset. -/
def rowsB (x1 : Vec F S64x512 .f32) (k : Fin k0_t1_loop.trips) : Vec F S8x512 .f32 :=
  View.ld x1 (Rect.unit (s := S64x512) (k0_off2 k) S8x512.size (k0_off2_inb k))

/-- The carried block before trip `k`: zero before the first trip, then each trip's update by the rows it reads. -/
def carried (x0 : Vec F S64x256 .f32) (x1 : Vec F S64x512 .f32) : ℕ → FVec F S256x512 .f32
  | 0 => k0_pay1
  | k + 1 =>
    if h : k < k0_t1_loop.trips then k0_pay2 (carried x0 x1 k) (rowsA x0 ⟨k, h⟩) (rowsB x1 ⟨k, h⟩)
    else carried x0 x1 k

theorem carried_succ (x0 : Vec F S64x256 .f32) (x1 : Vec F S64x512 .f32) (k : Fin k0_t1_loop.trips) :
    carried x0 x1 (k.val + 1) = k0_pay2 (carried x0 x1 k.val) (rowsA x0 k) (rowsB x1 k) := by
  rw [carried]; exact dif_pos k.isLt

variable (𝒱 : Variants) (c : Dev nD) (bd : Option 𝒱.V) (i : grid0.Coords)
  (arg2 : Memref sig .tc .vmem S64x256 .f32) (harg2 : arg2.IsWhole)
  (arg3 : Memref sig .tc .vmem S64x512 .f32) (harg3 : arg3.IsWhole)
  (arg4 : Memref sig .tc .vmem S256x512 .f32) (harg4 : arg4.IsWhole)
  (x0 : Vec F S64x256 .f32) (x1 : Vec F S64x512 .f32)

/-- What one trip was found to yield, on staging buffers holding the two blocks: the loop's arithmetic of the carried
    block and of the rows the trip reads. -/
theorem trip_found (k : Fin k0_t1_loop.trips) (acc : FVec F S256x512 .f32) :
    tripR_k0_t1 (F := F) 𝒱 c bd i arg2 harg2 arg3 harg3 arg4 harg4 (harg2.unread x0) (harg3.unread x1) k acc
      = k0_pay2 acc (rowsA x0 k) (rowsB x1 k) := by
  unfold tripR_k0_t1 trip_k0_t1
  dsimp only
  simp only [View.readAt_eq_ld, harg2.read_unread, harg3.read_unread]
  rfl

/-- The carried value the run tracks is the recursion above, at every trip. -/
theorem tracked_eq : ∀ k : ℕ, k ≤ k0_t1_loop.trips →
    st_k0_t1 (F := F) 𝒱 c bd i arg2 harg2 arg3 harg3 arg4 harg4 (harg2.unread x0) (harg3.unread x1) k0_pay1 k
      = carried x0 x1 k
  | 0, _ => rfl
  | k + 1, hk => by
    have hlt : k < k0_t1_loop.trips := hk
    refine (st_k0_t1_succ 𝒱 c bd i arg2 harg2 arg3 harg3 arg4 harg4 _ _ _ ⟨k, hlt⟩).trans ?_
    refine (trip_found 𝒱 c bd i arg2 harg2 arg3 harg3 arg4 harg4 x0 x1 ⟨k, hlt⟩ _).trans ?_
    refine Eq.trans ?_ (carried_succ x0 x1 ⟨k, hlt⟩).symm
    exact congrArg (fun a => k0_pay2 a (rowsA x0 ⟨k, hlt⟩) (rowsB x1 ⟨k, hlt⟩))
      (tracked_eq k (Nat.le_of_lt hlt))

theorem zero_offsets : (![0, 0] : Fin 2 → Nat) = fun _ => 0 := funext fun a => by fin_cases a <;> rfl

/-- The block the body leaves in the output's staging buffer: the clamp of the carried block after all the trips. -/
theorem out_found :
    out0_A_2 (F := F) c i arg2 harg2 arg3 harg3 arg4 harg4 x0 x1
      = k0_pay3 (carried x0 x1 k0_t1_loop.trips) := by
  unfold out0_A_2
  rw [View.read_writes_eq_canon _ _ _ (cover0_A_2 c i arg2 harg2 arg3 harg3 arg4 harg4 x0 x1)]
  unfold kernelRun0_A
  dsimp only
  rw [View.canon_unit_zero zero_offsets]
  exact congrArg k0_pay3
    (tracked_eq Variants.none c none i arg2 harg2 arg3 harg3 arg4 harg4 x0 x1 k0_t1_loop.trips (Nat.le_refl _))

end Cert.L1.Trips

end
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibRunningSum.lean ====
/-
  A sum accumulated block by block, in any commutative additive monoid.

  A quantity that starts at zero and, at step k, grows by the sum of the k-th block of n consecutive terms, equals
  after m steps the sum of all m * n terms (`blocks_total`); more generally a quantity that starts at zero and grows
  by g k at step k is, after k steps, the sum of the first k increments (`partial_sum`). Only the associativity and
  commutativity of addition are used, so this holds on the extended reals whatever the terms are: it is the law by
  which a loop that carries a running total over chunks of a contracted axis computes the one sum over the whole axis.
-/
import proofs.«157641_j72335839199292_2_alg».proof.Proof.LibSumBlocks

open scoped BigOperators

namespace Cert.Lib.RunningSum

variable {β : Type*} [AddCommMonoid β]

/-- A quantity that starts at zero and grows by `g k` at step `k` is, after `k` steps, the sum of the first `k`
    increments. -/
theorem partial_sum {m : ℕ} (g : Fin m → β) (a : ℕ → β) (h0 : a 0 = 0)
    (hs : ∀ k : Fin m, a (k.val + 1) = a k.val + g k) :
    ∀ (k : ℕ) (hk : k ≤ m), a k = ∑ t : Fin k, g (Fin.castLE hk t)
  | 0, _ => by rw [h0]; rfl
  | k + 1, hk => by
    have ih := partial_sum g a h0 hs k (Nat.le_of_succ_le hk)
    rw [Fin.sum_univ_castSucc]
    calc a (k + 1) = a k + g ⟨k, hk⟩ := hs ⟨k, hk⟩
      _ = (∑ t : Fin k, g (Fin.castLE (Nat.le_of_succ_le hk) t)) + g ⟨k, hk⟩ := by rw [ih]
      _ = _ := rfl

/-- Accumulated over `m` blocks of `n` consecutive terms each, from zero: the sum of all `m * n` terms. -/
theorem blocks_total {m n N : ℕ} (hN : m * n = N) (f : Fin N → β) (a : ℕ → β) (h0 : a 0 = 0)
    (hs : ∀ k : Fin m, a (k.val + 1) = a k.val + ∑ s : Fin n, f (SumBlocks.idx hN k s)) :
    a m = ∑ d : Fin N, f d := by
  rw [SumBlocks.sum_eq hN f, partial_sum (fun k => ∑ s : Fin n, f (SumBlocks.idx hN k s)) a h0 hs m (Nat.le_refl m)]
  rfl

end Cert.Lib.RunningSum
-- ==== Proof.Spec.lean ====
/-
  The function both programs compute: the pairwise L1 distances of two sets of 2048 points with 64 features each,
  clamped below at zero. Entry (i, j) is max(sum over the features d of |a(i, d) - b(j, d)|, 0), on the extended
  reals, with |x| the larger of x and -x.
-/
import Idealize.ShloMosaic.PureOps.Ideal
import Idealize.ShloMosaic.Lib.ValueIdx

noncomputable section

namespace Cert.L1

open Idealize.ShloMosaic Idealize.ShloMosaic.ValueIdx
open scoped BigOperators

/-- The absolute value on the extended reals. -/
def mag (x : EReal) : EReal := max x (-x)

/-- The absolute value the float operations take at the ideal values is this one. -/
theorem absf_eq {φ : FTy} (x : Ideal φ) : FloatOps.absf x = mag x := rfl

/-- The pairwise L1 distances of the rows of `a` and the rows of `b`, clamped below at zero. -/
def dist (a b : (⟨2, ![2048, 64]⟩ : Shape).Idx → EReal) : (⟨2, ![2048, 2048]⟩ : Shape).Idx → EReal :=
  fun j => max (∑ d : Fin 64, mag (a (ix2 (j 0) d) - b (ix2 (j 1) d))) 0

end Cert.L1

end
-- ==== Proof.Entry.lean ====
/-
  One entry of the output block, at the ideal values.

  Trip k of the loop reads feature rows 8k .. 8k+7 of the two staged blocks, so after the eight trips the carried block
  holds, at (p, q), the sum over all 64 features d of |x(d, p) - y(d, q)|: eight blocks of eight consecutive terms,
  added up in order from zero. The stored entry is that sum clamped below at zero. When column p of the first staged
  block is row i of the first point set and column q of the second is row j of the second point set, this is the
  clamped L1 distance of those two points.
-/
import proofs.«157641_j72335839199292_2_alg».proof.Proof.Chunk
import proofs.«157641_j72335839199292_2_alg».proof.Proof.Trips
import proofs.«157641_j72335839199292_2_alg».proof.Proof.LibRunningSum
import proofs.«157641_j72335839199292_2_alg».proof.Proof.Spec

noncomputable section

namespace Cert.L1.Entry

open Cert.KernelIdeal Cert.KernelIdeal.Gen Idealize.ShloMosaic Idealize.ShloMosaic.ValueIdx
open Cert.L1 Cert.L1.Trips
open scoped BigOperators

/-- The loop makes eight trips. -/
theorem trips_eq : k0_t1_loop.trips = 8 := by decide +kernel

section Rows
variable {F : FTy → Type} [FloatOps F]

/-- Row s of what trip k reads of the first staged block is the block's row 8k + s. -/
theorem rowsA_apply (x0 : Vec F S64x256 .f32) (k : Fin k0_t1_loop.trips) (s : Fin 8) (p : Fin 256) (D : Fin 64)
    (hD : D.val = k.val * 8 + s.val) : rowsA x0 k (ix2 s p) = x0 (ix2 D p) := by
  unfold rowsA
  refine congrArg x0 (funext fun a => Fin.ext ?_)
  match a with
  | ⟨0, _⟩ =>
    show (k0_off1 k) 0 + 1 * s.val = D.val
    rw [k0_off1_eq k]
    show 8 * k.val + 1 * s.val = D.val
    omega
  | ⟨1, _⟩ =>
    show (k0_off1 k) 1 + 1 * p.val = p.val
    rw [k0_off1_eq k]
    show 0 + 1 * p.val = p.val
    omega

/-- Row s of what trip k reads of the second staged block is the block's row 8k + s. -/
theorem rowsB_apply (x1 : Vec F S64x512 .f32) (k : Fin k0_t1_loop.trips) (s : Fin 8) (q : Fin 512) (D : Fin 64)
    (hD : D.val = k.val * 8 + s.val) : rowsB x1 k (ix2 s q) = x1 (ix2 D q) := by
  unfold rowsB
  refine congrArg x1 (funext fun a => Fin.ext ?_)
  match a with
  | ⟨0, _⟩ =>
    show (k0_off2 k) 0 + 1 * s.val = D.val
    rw [k0_off2_eq k]
    show 8 * k.val + 1 * s.val = D.val
    omega
  | ⟨1, _⟩ =>
    show (k0_off2 k) 1 + 1 * q.val = q.val
    rw [k0_off2_eq k]
    show 0 + 1 * q.val = q.val
    omega

end Rows

/-- After all the trips the carried block holds, at (p, q), the sum over the 64 features of the absolute
    differences of column p of the first staged block and column q of the second. -/
theorem carried_apply (x0 : Vec Ideal S64x256 .f32) (x1 : Vec Ideal S64x512 .f32) (p : Fin 256) (q : Fin 512) :
    carried (F := Ideal) x0 x1 k0_t1_loop.trips (ix2 p q) = ∑ d : Fin 64, mag (x0 (ix2 d p) - x1 (ix2 d q)) := by
  rw [trips_eq]
  refine Cert.Lib.RunningSum.blocks_total (m := 8) (n := 8) (N := 64) (by norm_num)
    (fun d => mag (x0 (ix2 d p) - x1 (ix2 d q))) (fun k => carried x0 x1 k (ix2 p q))
    (Chunk.start_apply _) (fun k => ?_)
  have hk : k.val < k0_t1_loop.trips := by rw [trips_eq]; exact k.isLt
  refine (congrFun (carried_succ x0 x1 ⟨k.val, hk⟩) (ix2 p q)).trans ?_
  refine (Chunk.trip_apply _ _ _ p q).trans ?_
  refine congrArg (carried x0 x1 k.val (ix2 p q) + ·) (Finset.sum_congr rfl fun s _ => ?_)
  exact congrArg mag (congrArg₂ (· - ·)
    (rowsA_apply x0 ⟨k.val, hk⟩ s p (SumBlocks.idx (by norm_num) k s) rfl)
    (rowsB_apply x1 ⟨k.val, hk⟩ s q (SumBlocks.idx (by norm_num) k s) rfl))

/-- A stored entry is the clamped L1 distance of the two points its block columns hold. -/
theorem block_entry (x0 : Vec Ideal S64x256 .f32) (x1 : Vec Ideal S64x512 .f32)
    (a b : (⟨2, ![2048, 64]⟩ : Shape).Idx → EReal) (j : S256x512.Idx) (i : (⟨2, ![2048, 2048]⟩ : Shape).Idx)
    (hA : ∀ d : Fin 64, x0 (ix2 d (j 0)) = a (ix2 (i 0) d))
    (hB : ∀ d : Fin 64, x1 (ix2 d (j 1)) = b (ix2 (i 1) d)) :
    k0_pay3 (F := Ideal) (carried x0 x1 k0_t1_loop.trips) j = dist a b i := by
  obtain ⟨p, q, rfl⟩ : ∃ (p : Fin 256) (q : Fin 512), j = ix2 p q := ⟨j 0, j 1, eq_ix2 j⟩
  rw [Chunk.clamp_apply, carried_apply]
  show max (∑ d : Fin 64, mag (x0 (ix2 d p) - x1 (ix2 d q))) 0
    = max (∑ d : Fin 64, mag (a (ix2 (i 0) d) - b (ix2 (i 1) d))) 0
  refine congrArg (max · 0) (Finset.sum_congr rfl fun d _ => ?_)
  exact congrArg mag (congrArg₂ (· - ·) (hA d) (hB d))

end Cert.L1.Entry

end
-- ==== Proof.Blocks.lean ====
/-
  From the output's blocks to the whole output array, at the ideal values.

  The kernel runs on an 8 x 4 grid. Before the grid the two point sets are transposed, so that features run down the
  rows; at point (g, h) the body sees columns 256 g .. 256 g + 255 of the first transposed set, columns 512 h .. 512 h + 511
  of the second, and writes back block (g, h) — rows 256 g .., columns 512 h .. — of the [2048, 2048] output. Column p of the
  first staged block is therefore point 256 g + p of the first set, column q of the second is point 512 h + q of the
  second set, and entry (p, q) of the block written back is the clamped L1 distance of those two points: the block is the
  restriction of the one array of all pairwise distances. The 32 blocks tile the output, so after the run the output
  array is that array.
-/
import proofs.«157641_j72335839199292_2_alg».proof.Proof.Gen.KernelIdeal.Value
import proofs.«157641_j72335839199292_2_alg».proof.Proof.Entry
import Idealize.ShloMosaic.Lib.ValueLayout
import Idealize.ShloMosaic.Lib.StableHlo.Run

set_option maxRecDepth 16384

noncomputable section

namespace Cert.L1.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.L1

variable (m : (ℓ : Loc nD τ sig) → Buf (Elt Ideal) ℓ) (ρ : Dev nD → PrngReg)

/-! ## The arrays the grid reads: the two point sets, transposed -/

/-- The first staged array is the first point set transposed. -/
theorem stagedA (c : Dev nD) :
    (V m c main_v0 : S64x2048.Idx → EReal)
      = transpose S64x2048 [1, 0] (m ((c : Thread nD τ).loc main_arg0)) transposes_S2048x64_S64x2048_1_0 := by
  dsimp only [V, hostOps0]; after_results

/-- The second staged array is the second point set transposed. -/
theorem stagedB (c : Dev nD) :
    (V m c main_v1 : S64x2048.Idx → EReal)
      = transpose S64x2048 [1, 0] (m ((c : Thread nD τ).loc main_arg1)) transposes_S2048x64_S64x2048_1_0 := by
  dsimp only [V, hostOps0]; after_results

/-- Feature d of point r, read off the first staged array. -/
theorem stagedA_apply (c : Dev nD) (i : S64x2048.Idx) (d : Fin 64) (r : Fin 2048)
    (h0 : (i 0).val = d.val) (h1 : (i 1).val = r.val) :
    (V m c main_v0 : S64x2048.Idx → EReal) i = m ((c : Thread nD τ).loc main_arg0) (ix2 r d) := by
  have e : i = ix2 d r := funext fun a => Fin.ext (by match a with | ⟨0, _⟩ => exact h0 | ⟨1, _⟩ => exact h1)
  rw [stagedA, e]
  exact transpose_ix2_apply _ _ d r

/-- Feature d of point r, read off the second staged array. -/
theorem stagedB_apply (c : Dev nD) (i : S64x2048.Idx) (d : Fin 64) (r : Fin 2048)
    (h0 : (i 0).val = d.val) (h1 : (i 1).val = r.val) :
    (V m c main_v1 : S64x2048.Idx → EReal) i = m ((c : Thread nD τ).loc main_arg1) (ix2 r d) := by
  have e : i = ix2 d r := funext fun a => Fin.ext (by match a with | ⟨0, _⟩ => exact h0 | ⟨1, _⟩ => exact h1)
  rw [stagedB, e]
  exact transpose_ix2_apply _ _ d r

/-! ## The grid's block indices -/

/-- The index maps over the grid: both inputs take all 64 feature rows, the first input's columns follow the output
    block's rows and the second's the output block's columns. -/
theorem block_indices : ∀ t : Fin cfg0.N,
    win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the 8 x 4 tiling is some grid point's. -/
theorem block_onto : ∀ (g : Fin 8) (h : Fin 4), ∃ t : Fin cfg0.N, win0_2.index t = ![g.val, h.val] :=
  (by decide +kernel : ∀ (g : Fin 8) (h : Fin 4), ∃ t : Fin grid0.N, win0_2.index t = ![g.val, h.val])

/-! ## What a grid point writes back -/

/-- Point t writes back block t of the array of all pairwise clamped distances. -/
theorem flushed_eq (c : Dev nD) (t : Fin cfg0.N) :
    (dats m 0 c).flushed 2 t
      = ((cfg0.win 2).blk t).view.read (Elt Ideal)
          (dist (m ((c : Thread nD τ).loc main_arg0)) (m ((c : Thread nD τ).loc main_arg1))) := by
  rw [Cert.KernelIdeal.Value.flushed2_A,
    Trips.out_found (F := Ideal) c (grid0.coords t) (ms0_0 t) (hs0_0 t) (ms0_1 t) (hs0_1 t) (ms0_2 t) (hs0_2 t)
      (iblk m c 0 t) (iblk m c 1 t)]
  obtain ⟨e0, e1, e2, e3⟩ := block_indices t
  funext j
  refine Entry.block_entry (iblk m c 0 t) (iblk m c 1 t) (m ((c : Thread nD τ).loc main_arg0))
    (m ((c : Thread nD τ).loc main_arg1)) j (((cfg0.win 2).blk t).view.emb j) (fun d => ?_) (fun d => ?_)
  · refine stagedA_apply m c (((cfg0.win 0).blk t).view.emb (ix2 d (j 0))) d ((((cfg0.win 2).blk t).view.emb j) 0) ?_ ?_
    · show win0_0.index t (0 : Fin 2) * 64 + 1 * d.val = d.val
      omega
    · show win0_0.index t (1 : Fin 2) * 256 + 1 * (j 0).val = win0_2.index t (0 : Fin 2) * 256 + 1 * (j 0).val
      omega
  · refine stagedB_apply m c (((cfg0.win 1).blk t).view.emb (ix2 d (j 1))) d ((((cfg0.win 2).blk t).view.emb j) 1) ?_ ?_
    · show win0_1.index t (0 : Fin 2) * 64 + 1 * d.val = d.val
      omega
    · show win0_1.index t (1 : Fin 2) * 512 + 1 * (j 1).val = win0_2.index t (1 : Fin 2) * 512 + 1 * (j 1).val
      omega

/-! ## The blocks tile the output -/

/-- An index of the output is in point t's block iff each coordinate is in the block's range on its axis. -/
theorem mem_blk (t : Fin cfg0.N) (i : S2048x2048.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v2).slice (win0_2.rect t)).set ↔ _
  rw [View.set_slice_whole, Rect.mem_set_unit]
  exact Iff.rfl

/-- Every index of the output is in the block of the point at its row over 256 and its column over 512. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := block_onto ⟨(i 0).val / 256, by omega⟩ ⟨(i 1).val / 512, by omega⟩
  have q0 : win0_2.index t (0 : Fin 2) = (i 0).val / 256 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 512 ≤ (i 1).val ∧ (i 1).val < win0_2.index t (1 : Fin 2) * 512 + 512
    omega

/-! ## The output array, and the run -/

/-- After the run the output array is the array of all pairwise clamped distances of the two point sets. -/
theorem final (c : Dev nD) :
    (dats m 0 c).arrAt 2 cfg0.N
      = dist (m ((c : Thread nD τ).loc main_arg0)) (m ((c : Thread nD τ).loc main_arg1)) :=
  (dats m 0 c).arrAt_eq_of_cover 2 _ (fun t _ => flushed_eq m c t) covered

/-- Every weakly fair execution of the idealized kernel ends with the output at the pairwise clamped distances of its
    arguments, and the arguments unchanged. -/
theorem run : θ_run defs (onTc (τ := τ) (main (F := Ideal))) ⟨m, fun _ => 0, ρ⟩ fun r => ∀ c : Dev nD,
      r.2.mem ((c : Thread nD τ).loc main_v2)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.L1.Blocks

end
-- ==== Proof.ShiftCancel.lean ====
/-
  The one law that joins the two programs. The reference first subtracts from every row of both point sets the same
  vector a (the mean of the first set's rows) and only then takes the pairwise differences; the kernel takes the
  pairwise differences of the rows as given. On the reals (x - a) - (y - a) = x - y, so the two agree coordinate by
  coordinate as soon as x, y and a are real numbers — on the extended reals the law fails when a is infinite, which
  is why the finiteness of the inputs is used.
-/
import Idealize.ShloMosaic.PureOps.Ideal

namespace Cert.L1

/-- Subtracting one real shift from both points leaves their difference unchanged. -/
theorem shift_cancel (x y a : ℝ) :
    ((x : EReal) - (a : EReal)) - ((y : EReal) - (a : EReal)) = (x : EReal) - (y : EReal) := by
  rw [← EReal.coe_sub, ← EReal.coe_sub, ← EReal.coe_sub, ← EReal.coe_sub]
  congr 1
  ring

end Cert.L1
-- ==== Proof.Reference.lean ====
/-
  The reference computes the pairwise clamped L1 distances, when its inputs are real.

  The reference first forms, per feature d, the mean of the first point set, mean(d) = (sum over the 2048 points i of
  a(i, d)) / 2048, subtracts it from every point of both sets, and then takes sum over d of
  |(a(i, d) - mean(d)) - (b(j, d) - mean(d))|, clamped below at zero. When every entry of a is a real number the sum
  of 2048 of them is real, and so is its quotient by 2048; when moreover the entries of b are real the shift by the
  mean cancels in each difference, (x - r) - (y - r) = x - y, and what is left is the distance itself.
-/
import proofs.«157641_j72335839199292_2_alg».proof.Proof.Gen.ReferenceIdeal.Read
import proofs.«157641_j72335839199292_2_alg».proof.Proof.ShiftCancel
import proofs.«157641_j72335839199292_2_alg».proof.Proof.Spec
import Idealize.ShloMosaic.PureOps.Ideal.Laws
import Idealize.ShloMosaic.Lib.ValueIdx

noncomputable section

namespace Cert.L1.Reference

open Cert.ReferenceIdeal Cert.ReferenceIdeal.Gen Cert.ReferenceIdeal.Read
open Idealize.ShloMosaic Idealize.ShloMosaic.ValueIdx
open Cert.L1
open scoped BigOperators

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The divisor of the mean: the float 2048.0 denotes the real 2048. -/
theorem ofBits_2048 : Ideal.ofBits .f32 0x45000000#32 = ((2048 : ℝ) : EReal) := by
  simp [Ideal.ofBits, Ideal.ieee, -EReal.coe_mul]; norm_num

variable (x0 x1 : S2048x64.Idx → EReal)

/-- The mean of real entries is real. -/
theorem mean_real (h0 : ∀ i, ∃ r : ℝ, x0 i = (r : EReal)) (u : S1x64.Idx) :
    ∃ r : ℝ, val_main_v3 (F := Ideal) x0 u = (r : EReal) := by
  choose f0 hf0 using h0
  refine ⟨(∑ k : Fin 2048, f0 (idx_main_v0 (idx_main_v1 u) k)) * (1 / 2048 : ℝ), ?_⟩
  rw [val_main_v3_apply, val_main_v1_apply, val_main_v0_apply, val_main_v2_apply, val_main_cst_0_apply,
    val_main_cst_apply]
  simp only [Ideal.hostDivf_def, Ideal.ofBits_def, ofBits_2048, Ideal.ofBits_zero_f32, zero_add, hf0]
  rw [Ideal.div_coe (by norm_num : (2048 : ℝ) ≠ 0), ← coe_sum, ← EReal.coe_mul]

/-- With real inputs the difference the reference takes at (i, j, d), after shifting both points by the mean, is the
    difference of the points' features themselves. -/
theorem diff_apply (h0 : ∀ i, ∃ r : ℝ, x0 i = (r : EReal)) (h1 : ∀ i, ∃ r : ℝ, x1 i = (r : EReal))
    (j : S2048x2048x64.Idx) :
    val_main_v12 (F := Ideal) x0 x1 j
      = x0 (ix2 (n0 := 2048) (n1 := 64) (j 0) (j 2)) - x1 (ix2 (n0 := 2048) (n1 := 64) (j 1) (j 2)) := by
  have ea : idx_main_v8 (idx_main_v10 j) = ix2 (n0 := 2048) (n1 := 64) (j 0) (j 2) :=
    funext fun a => Fin.ext (by match a with | ⟨0, _⟩ => rfl | ⟨1, _⟩ => rfl)
  have eb : idx_main_v9 (idx_main_v11 j) = ix2 (n0 := 2048) (n1 := 64) (j 1) (j 2) :=
    funext fun a => Fin.ext (by match a with | ⟨0, _⟩ => rfl | ⟨1, _⟩ => rfl)
  have em : idx_main_v6 (idx_main_v9 (idx_main_v11 j)) = idx_main_v4 (idx_main_v8 (idx_main_v10 j)) :=
    funext fun a => Fin.ext (by match a with | ⟨0, _⟩ => rfl | ⟨1, _⟩ => rfl)
  rw [val_main_v12_apply, val_main_v10_apply, val_main_v8_apply, val_main_v5_apply, val_main_v4_apply,
    val_main_v11_apply, val_main_v9_apply, val_main_v7_apply, val_main_v6_apply, em, ea, eb]
  obtain ⟨r, hr⟩ := mean_real x0 h0 (idx_main_v4 (ix2 (n0 := 2048) (n1 := 64) (j 0) (j 2)))
  obtain ⟨a, ha⟩ := h0 (ix2 (n0 := 2048) (n1 := 64) (j 0) (j 2))
  obtain ⟨b, hb⟩ := h1 (ix2 (n0 := 2048) (n1 := 64) (j 1) (j 2))
  rw [hr, ha, hb]
  exact shift_cancel a b r

/-- With real inputs the reference's result is the array of pairwise clamped L1 distances. -/
theorem result_eq (h0 : ∀ i, ∃ r : ℝ, x0 i = (r : EReal)) (h1 : ∀ i, ∃ r : ℝ, x1 i = (r : EReal)) :
    val_main_v16 (F := Ideal) x0 x1 = dist x0 x1 := by
  funext i
  rw [val_main_v16_apply, val_main_v14_apply, val_main_v15_apply, val_main_cst_2_apply, val_main_cst_1_apply]
  simp only [Ideal.maximumf_def, Ideal.ofBits_def, Ideal.ofBits_zero_f32, zero_add]
  refine congrArg (max · 0) (Finset.sum_congr rfl fun k _ => ?_)
  rw [val_main_v13_apply, diff_apply x0 x1 h0 h1]
  rfl

end Cert.L1.Reference

end
-- ==== Proof.Finite.lean ====
/-
  The precondition, read: every entry of both inputs is a real number.

  The precondition is the conjunction of two tests, one per input: the conjunction over all entries x of
  |x| < +infinity. On the extended reals |x| is the larger of x and -x, which is +infinity exactly when x is one of the
  two infinities; so the test holds at an entry exactly when the entry is a real number.
-/
import proofs.«157641_j72335839199292_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.L1.Finite

open Idealize.ShloMosaic Idealize.ShloMosaic.ValueIdx
open Cert.Pre_finite_inputs

/-- The pattern of +infinity denotes the top of the extended reals. -/
theorem ofBits_inf : Ideal.ofBits .f32 0x7F800000#32 = ⊤ := by simp [Ideal.ofBits, Ideal.ieee]

/-- An extended real whose absolute value is below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The result of a reduction over all axes has one index. -/
instance : Subsingleton S_.Idx := ⟨fun a b => funext fun d => d.elim0⟩

variable [Facts]

/-- Under the precondition every entry of both inputs is a real number. -/
theorem entries_real (x0 x1 : FVec Ideal S2048x64 .f32) (h : fn (F := Ideal) x0 x1 = fun _ => 1#1) :
    (∀ i, ∃ r : ℝ, x0 i = (r : EReal)) ∧ (∀ i, ∃ r : ℝ, x1 i = (r : EReal)) := by
  have h' := congrFun h ix0
  dsimp only [fn] at h'
  obtain ⟨ha, hb⟩ := IntOp.andi_eq_one.1 h'
  exact ⟨fun i => real_of_abs_lt_inf (x0 i) (Host.reduce_andi_all _ _ _ _ ix0 ha i),
    fun i => real_of_abs_lt_inf (x1 i) (Host.reduce_andi_all _ _ _ _ ix0 hb i)⟩

end Cert.L1.Finite

end
-- ==== Proof.lean ====
/-
  Pairwise L1 distances, tiled kernel against the plain formula.

  The kernel transposes the two point sets (2048 points of 64 features each), walks an 8 x 4 grid of [256, 512] output
  blocks and, per block, adds up over eight trips of eight features the absolute differences |a(i, d) - b(j, d)|,
  clamping the total below at zero. The reference first subtracts from every point of both sets the mean of the first
  set, then sums the absolute differences over all 64 features at once, and clamps.

  On the extended reals the two agree entry by entry once the inputs are real numbers, which is the precondition:
  the mean of real entries is real, and a real shift common to both points cancels in their difference,
  (x - r) - (y - r) = x - y (Proof/ShiftCancel.lean, Proof/Reference.lean, Proof/Finite.lean); the eight partial sums
  of eight terms, accumulated from zero, are the sum of the 64 terms by associativity and commutativity alone
  (Proof/LibRunningSum.lean, Proof/Entry.lean); each block written back is the restriction of the one array of all
  pairwise distances, and the blocks tile the output (Proof/Blocks.lean, over Proof/Trips.lean and Proof/Chunk.lean).
  Both programs therefore end with the array Proof/Spec.lean states. The idealized kernel is the kernel's own text
  read at the ideal values (nothing was rewritten), and each program leaves its arguments as it found them.
-/
import proofs.«157641_j72335839199292_2_alg».proof.Defs
import proofs.«157641_j72335839199292_2_alg».proof.Proof.Gen.Kernel
import proofs.«157641_j72335839199292_2_alg».proof.Proof.Gen.Kernel.Skeleton
import proofs.«157641_j72335839199292_2_alg».proof.Proof.Gen.Kernel.Loops
import proofs.«157641_j72335839199292_2_alg».proof.Proof.Gen.Kernel.Launch
import proofs.«157641_j72335839199292_2_alg».proof.Proof.Gen.Kernel.Points
import proofs.«157641_j72335839199292_2_alg».proof.Proof.Gen.Kernel.Frame
import proofs.«157641_j72335839199292_2_alg».proof.Proof.Gen.KernelIdeal
import proofs.«157641_j72335839199292_2_alg».proof.Proof.Gen.KernelIdeal.Skeleton
import proofs.«157641_j72335839199292_2_alg».proof.Proof.Gen.KernelIdeal.Loops
import proofs.«157641_j72335839199292_2_alg».proof.Proof.Gen.KernelIdeal.Launch
import proofs.«157641_j72335839199292_2_alg».proof.Proof.Gen.KernelIdeal.Points
import proofs.«157641_j72335839199292_2_alg».proof.Proof.Gen.KernelIdeal.Frame
import proofs.«157641_j72335839199292_2_alg».proof.Proof.Gen.ReferenceIdeal
import proofs.«157641_j72335839199292_2_alg».proof.Proof.Gen.Pre_finite_inputs
import proofs.«157641_j72335839199292_2_alg».proof.Proof.Gen.KernelIdeal.Value
import proofs.«157641_j72335839199292_2_alg».proof.Proof.Gen.ReferenceIdeal.Run
import proofs.«157641_j72335839199292_2_alg».proof.Proof.Gen.ReferenceIdeal.Read
import proofs.«157641_j72335839199292_2_alg».proof.Proof.Blocks
import proofs.«157641_j72335839199292_2_alg».proof.Proof.Reference
import proofs.«157641_j72335839199292_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of array operations: it runs to the end, and none of them writes an argument. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- Both programs end with the array of pairwise clamped L1 distances of their (equal, real) arguments. -/
theorem algebraic : Cert.algebraic_KernelIdeal_ReferenceIdeal := by
  intro m ρ m' ρ' hpre hagree
  refine ⟨fun c => Cert.L1.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.L1.Blocks.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1⟩ := Cert.L1.Finite.entries_real _ _ (hpre c)
  rw [(hagree c).1, (hagree c).2]
  exact (Cert.ReferenceIdeal.Read.val_main_v16_eq _ _).trans (Cert.L1.Reference.result_eq _ _ h0 h1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
